-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S1600000 32) (main_arg2 : IVec S1600000 32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S1600000 : Shape := ⟨1, ![1600000]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S2000x128 : Shape := ⟨2, ![2000, 128]⟩
abbrev S2000 : Shape := ⟨1, ![2000]⟩
abbrev S2000x1 : Shape := ⟨2, ![2000, 1]⟩
abbrev S1x128 : Shape := ⟨2, ![1, 128]⟩

abbrev nBuf : Space → Nat
  | .hbm => 57
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 159
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S_, .f32⟩
  | 29 => ⟨S100000, .f32⟩
  | 30 => ⟨S100000x1, .f32⟩
  | 31 => ⟨S_, .f32⟩
  | 32 => ⟨S100000x1, .f32⟩
  | 33 => ⟨S100000x1, .f32⟩
  | 34 => ⟨S100000x128, .f32⟩
  | 35 => ⟨S100000x128, .f32⟩
  | 36 => ⟨S100000x128, .f32⟩
  | 37 => ⟨S_, .f32⟩
  | 38 => ⟨S100000, .f32⟩
  | 39 => ⟨S100000x1, .f32⟩
  | 40 => ⟨S_, .f32⟩
  | 41 => ⟨S100000x1, .f32⟩
  | 42 => ⟨S100000x1, .f32⟩
  | 43 => ⟨S100000x128, .f32⟩
  | 44 => ⟨S100000x128, .f32⟩
  | 45 => ⟨S_, .f32⟩
  | 46 => ⟨S100000x1, .f32⟩
  | 47 => ⟨S100000x1, .f32⟩
  | 48 => ⟨S100000x1, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S_, .f32⟩
  | 78 => ⟨S100000, .f32⟩
  | 79 => ⟨S100000x1, .f32⟩
  | 80 => ⟨S_, .f32⟩
  | 81 => ⟨S100000x1, .f32⟩
  | 82 => ⟨S100000x1, .f32⟩
  | 83 => ⟨S100000x128, .f32⟩
  | 84 => ⟨S100000x128, .f32⟩
  | 85 => ⟨S100000x128, .f32⟩
  | 86 => ⟨S_, .f32⟩
  | 87 => ⟨S100000, .f32⟩
  | 88 => ⟨S100000x1, .f32⟩
  | 89 => ⟨S_, .f32⟩
  | 90 => ⟨S100000x1, .f32⟩
  | 91 => ⟨S100000x1, .f32⟩
  | 92 => ⟨S100000x128, .f32⟩
  | 93 => ⟨S100000x128, .f32⟩
  | 94 => ⟨S_, .f32⟩
  | 95 => ⟨S100000x1, .f32⟩
  | 96 => ⟨S100000x1, .f32⟩
  | 97 => ⟨S100000x1, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S_, .f32⟩
  | 127 => ⟨S100000, .f32⟩
  | _ => ⟨S100000x128, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | 4 => ⟨S100000x128, .f32⟩
  | 5 => ⟨S100000x128, .f32⟩
  | 6 => ⟨S100000x128, .f32⟩
  | 7 => ⟨S_, .f32⟩
  | 8 => ⟨S100000, .f32⟩
  | 9 => ⟨S100000x1, .f32⟩
  | 10 => ⟨S_, .f32⟩
  | 11 => ⟨S100000x1, .f32⟩
  | 12 => ⟨S100000x1, .f32⟩
  | 13 => ⟨S100000x128, .f32⟩
  | 14 => ⟨S100000x128, .f32⟩
  | 15 => ⟨S_, .f32⟩
  | 16 => ⟨S100000x1, .f32⟩
  | 17 => ⟨S100000x1, .f32⟩
  | 18 => ⟨S100000x1, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call0_cst : Ref sig .tc := ⟨.hbm, 61, rfl⟩
abbrev main_call0_v0 : Ref sig .tc := ⟨.hbm, 62, rfl⟩
abbrev main_v38 : Ref sig .tc := ⟨.hbm, 63, rfl⟩
abbrev main_c_6 : Ref sig .tc := ⟨.hbm, 64, rfl⟩
abbrev main_v39 : Ref sig .tc := ⟨.hbm, 65, rfl⟩
abbrev main_v40 : Ref sig .tc := ⟨.hbm, 66, rfl⟩
abbrev main_c_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call1_cst : Ref sig .tc := ⟨.hbm, 110, rfl⟩
abbrev main_call1_v0 : Ref sig .tc := ⟨.hbm, 111, rfl⟩
abbrev main_v77 : Ref sig .tc := ⟨.hbm, 112, rfl⟩
abbrev main_c_14 : Ref sig .tc := ⟨.hbm, 113, rfl⟩
abbrev main_v78 : Ref sig .tc := ⟨.hbm, 114, rfl⟩
abbrev main_v79 : Ref sig .tc := ⟨.hbm, 115, rfl⟩
abbrev main_c_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_16 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_cst_18 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_19 : Ref sig .tc := ⟨.hbm, 135, rfl⟩
abbrev main_v95 : Ref sig .tc := ⟨.hbm, 136, rfl⟩
abbrev main_v96 : Ref sig .tc := ⟨.hbm, 137, rfl⟩
abbrev main_cst_20 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_21 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One layer of the network as mathematics, and the network as three layers around an aggregation step.

  A layer acts on each row of a [100000, 128] matrix by itself. For a row x (128 entries), with the row mean
  mu = (sum_j x_j) / 128 and the row variance v = (sum_j (x_j - mu)^2) / 128, the normalised row is
  n_k = (x_k - mu) * rsqrt(v + eps) * g_k + be_k, and the layer's output at column q is
  (sum_k n_k * W_{k q}) + b_q — followed, in the first two layers, by max(., 0). Everything is read on the extended
  reals with the exact operations; 128, eps and 0 are kept as the binary words both programs spell, so they are never
  evaluated. The network is layer3 (agg (layer2 (agg (layer1 (agg features))))), the aggregation step being whatever
  both programs do on the host between the layers: it is a parameter here.
-/
import Idealize.ShloMosaic.PureOps.Ideal
import Idealize.ShloMosaic.Lib.ValueIdx

noncomputable section

namespace Cert.LnLin

open Idealize.ShloMosaic Idealize.ShloMosaic.ValueIdx
open scoped BigOperators

/-- The divisor 128, as the word both programs print. -/
abbrev c128 : EReal := Ideal.ofBits .f32 0x43000000#32
/-- The variance's epsilon (the f32 nearest 1e-5), as the word both programs print. -/
abbrev cEps : EReal := Ideal.ofBits .f32 0x3727C5AC#32
/-- The zero the rectifier compares with, as the word both programs print. -/
abbrev cZero : EReal := Ideal.ofBits .f32 0x00000000#32

/-- The mean of a row. -/
def mean (x : Fin 128 → EReal) : EReal := Ideal.div (∑ j, x j) c128

/-- The (biased) variance of a row: the mean of the squared deviations. -/
def var (x : Fin 128 → EReal) : EReal := Ideal.div (∑ j, (x j - mean x) * (x j - mean x)) c128

/-- The normalised row, scaled by g and shifted by be. -/
def normed (x g be : Fin 128 → EReal) (k : Fin 128) : EReal :=
  (x k - mean x) * Ideal.rsqrt (var x + cEps) * g k + be k

/-- One output entry of a layer without the rectifier: the normalised row against column q of W, plus the bias. -/
def lin (x g be : Fin 128 → EReal) (W : Fin 128 → Fin 128 → EReal) (b : Fin 128 → EReal) (q : Fin 128) : EReal :=
  (∑ k, normed x g be k * W k q) + b q

/-- One output entry of a layer with the rectifier. -/
def linRelu (x g be : Fin 128 → EReal) (W : Fin 128 → Fin 128 → EReal) (b : Fin 128 → EReal) (q : Fin 128) : EReal :=
  max (lin x g be W b q) cZero

/-- A [100000, 128] matrix of extended reals. -/
abbrev Mat : Type := (⟨2, ![100000, 128]⟩ : Shape).Idx → EReal
/-- A [128] vector of extended reals. -/
abbrev V128 : Type := (⟨1, ![128]⟩ : Shape).Idx → EReal
/-- A [128, 128] matrix of extended reals. -/
abbrev M128 : Type := (⟨2, ![128, 128]⟩ : Shape).Idx → EReal

/-- A layer without the rectifier on a whole matrix: entry (r, q) depends on row r of X only. -/
def layer (X : Mat) (g be : V128) (W : M128) (b : V128) : Mat := fun i =>
  lin (fun j => X (ix2 (n0 := 100000) (n1 := 128) (i 0) j)) (fun j => g (ix1 j)) (fun j => be (ix1 j))
    (fun k q => W (ix2 k q)) (fun q => b (ix1 q)) (i 1)

/-- A layer with the rectifier on a whole matrix. -/
def layerRelu (X : Mat) (g be : V128) (W : M128) (b : V128) : Mat := fun i =>
  linRelu (fun j => X (ix2 (n0 := 100000) (n1 := 128) (i 0) j)) (fun j => g (ix1 j)) (fun j => be (ix1 j))
    (fun k q => W (ix2 k q)) (fun q => b (ix1 q)) (i 1)

theorem layer_apply (X : Mat) (g be : V128) (W : M128) (b : V128) (r : Fin 100000) (q : Fin 128) :
    layer X g be W b (ix2 r q) =
      lin (fun j => X (ix2 r j)) (fun j => g (ix1 j)) (fun j => be (ix1 j)) (fun k q => W (ix2 k q)) (fun q => b (ix1 q)) q := rfl

theorem layerRelu_apply (X : Mat) (g be : V128) (W : M128) (b : V128) (r : Fin 100000) (q : Fin 128) :
    layerRelu X g be W b (ix2 r q) =
      linRelu (fun j => X (ix2 r j)) (fun j => g (ix1 j)) (fun j => be (ix1 j)) (fun k q => W (ix2 k q)) (fun q => b (ix1 q)) q := rfl

/-- The network: three layers, the first two rectified, each fed by the aggregation of what came before. -/
def net (agg : Mat → Mat) (feat : Mat) (g1 be1 : V128) (W1 : M128) (b1 : V128) (g2 be2 : V128) (W2 : M128) (b2 : V128)
    (g3 be3 : V128) (W3 : M128) (b3 : V128) : Mat :=
  layer (agg (layerRelu (agg (layerRelu (agg feat) g1 be1 W1 b1)) g2 be2 W2 b2)) g3 be3 W3 b3

end Cert.LnLin

end
-- ==== Proof.LibColumn.lean ====
/-
  A vector kept as a column and spread over the columns of a matrix, read at an index: the two layout steps a
  `keepdims` row reduction prints in a kernel body — an [a] vector cast to [a, 1], and an [a, 1] column broadcast to
  [a, b] — and their composite, which at (p, c) is the vector's entry p whatever the column c. Any extents, any
  element type.
-/
import Idealize.ShloMosaic.Lib.Pipeline.Value
import Idealize.ShloMosaic.Lib.ValueIdx

namespace Cert.Lib.Column

open Idealize.ShloMosaic Idealize.ShloMosaic.ValueIdx

variable {α : Type}

/-- An [a] vector cast to the column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The composite: an [a] vector kept as a column and spread over b columns reads, at (p, c), the vector at p. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.Lib.Column
-- ==== Proof.LibRowBias.lean ====
/-
  A bias vector laid out as one row and repeated down the rows of a matrix, read at an entry.

  A kernel body adds a bias `b : [o]` to every row of an `[a, o]` block by casting it to `[1, o]` and broadcasting
  that row to `[a, o]`. Entry `(p, q)` of the result is `b q`, whatever the row `p`, for any extents and any
  element type.
-/
import Idealize.ShloMosaic.Lib.Pipeline.Value
import Idealize.ShloMosaic.Lib.ValueIdx
import Idealize.ShloMosaic.Lib.ValueLayout

namespace Cert.Gcn

open Idealize.ShloMosaic Idealize.ShloMosaic.ValueIdx

/-- Entry `(p, q)` of a `[o]` vector cast to `[1, o]` and broadcast to `[a, o]` is the vector's entry `q`. -/
theorem rowBias_apply {α : Type} {a o : ℕ} (v : (⟨1, ![o]⟩ : Shape).Idx → α)
    (h1 : (⟨1, ![o]⟩ : Shape).ShapeCasts ⟨2, ![1, o]⟩) (h2 : (⟨2, ![1, o]⟩ : Shape).Broadcasts ⟨2, ![a, o]⟩)
    (p : Fin a) (q : Fin o) :
    broadcastTo ⟨2, ![a, o]⟩ (shapeCast ⟨2, ![1, o]⟩ v h1) h2 (ix2 p q) = v (ix1 q) :=
  (broadcastTo_1b_ab_apply _ h2 p q).trans (shapeCast_a_1a_apply v h1 0 q)

end Cert.Gcn
-- ==== Proof.Payload.lean ====
/-
  The arithmetic of the kernel body, read at one entry, is the specification's row function.

  Each of the three kernel bodies turns a [2000, 128] block of rows x, two [128] vectors g and be, a [128, 128] matrix W
  and a [128] vector b into a [2000, 128] block. Read at entry (p, q) the result depends on row p of x only: with
  mu = (sum_j x_{p j}) / 128 and v = (sum_j (x_{p j} - mu)^2) / 128, the normalised row is
  n_k = (x_{p k} - mu) * rsqrt (v + eps) * g_k + be_k, and the entry is (sum_k n_k * W_{k q}) + b_q, followed in the
  first two bodies by max (., 0). The row sums are lane reductions kept as a column and spread back over the lanes; g, be
  and b are laid out as one row and repeated down the rows; the two matmul operands are first rounded to a narrower
  format, which is the identity on the extended reals; the matmul accumulates into a zero block.
-/
import proofs.«143838_j27779848471368_1_alg».proof.Proof.Gen.KernelIdeal.Skeleton
import proofs.«143838_j27779848471368_1_alg».proof.Proof.Spec
import proofs.«143838_j27779848471368_1_alg».proof.Proof.LibColumn
import proofs.«143838_j27779848471368_1_alg».proof.Proof.LibRowBias
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-! ## The pieces of the body, as functions of the block -/

/-- The lane sum of each row of a [2000, 128] block. -/
def rowSum (v : FVec Ideal S2000x128 .f32) : FVec Ideal S2000 .f32 :=
  multiReduction (F := Ideal) .add [1] S2000 v 0x00000000#32 reduces_S2000x128_S2000 (.inl rfl) rfl

/-- A [2000] vector kept as a column and divided by the word for 128. -/
def colDiv (s : FVec Ideal S2000 .f32) : FVec Ideal S2000x1 .f32 :=
  divf (shapeCast S2000x1 s shapeCasts_S2000_S2000x1) (broadcast S2000x1 (Scalar.ofBits .f32 0x43000000#32))

/-- The block with each row's mean subtracted. -/
def cen (v : FVec Ideal S2000x128 .f32) : FVec Ideal S2000x128 .f32 :=
  subf v (broadcastTo S2000x128 (colDiv (rowSum v)) broadcasts_S2000x1_S2000x128)

/-- The reciprocal square root of each row's variance plus epsilon, spread over the lanes. -/
def rstd (v : FVec Ideal S2000x128 .f32) : FVec Ideal S2000x128 .f32 :=
  broadcastTo S2000x128
    (rsqrt (addf (colDiv (rowSum (mulf (cen v) (cen v)))) (broadcast S2000x1 (Scalar.ofBits .f32 0x3727C5AC#32))))
    broadcasts_S2000x1_S2000x128

/-- A [128] vector laid out as one row and repeated down the 2000 rows. -/
def row (w : FVec Ideal S128 .f32) : FVec Ideal S2000x128 .f32 :=
  broadcastTo S2000x128 (shapeCast S1x128 w shapeCasts_S128_S1x128) broadcasts_S1x128_S2000x128

/-- The normalised block, scaled by g and shifted by be. -/
def nrm (v : FVec Ideal S2000x128 .f32) (g be : FVec Ideal S128 .f32) : FVec Ideal S2000x128 .f32 :=
  addf (mulf (mulf (cen v) (rstd v)) (row g)) (row be)

/-- The third body's stored value is the product of the normalised block with W, plus b as a row. -/
theorem k2_pay1_eq (x0 : Vec Ideal S2000x128 .f32) (x1 x2 : Vec Ideal S128 .f32) (x3 : Vec Ideal S128x128 .f32)
    (x4 : Vec Ideal S128 .f32) :
    Gen.k2_pay1 (F := Ideal) x0 x1 x2 x3 x4 =
      addf (matmul (F := Ideal) dot_S2000x128_S128x128_S2000x128_1_0_0_1_n_n none
          (truncf .bf16 (nrm (shapeCast S2000x128 x0 shapeCasts_S2000x128_S2000x128) x1 x2) bitsLt_bf16_f32)
          (truncf .bf16 x3 bitsLt_bf16_f32) (constant (F := Ideal) S2000x128 .f32 0x00000000#32))
        (row x4) := rfl

/-- The first body's stored value is the third's followed by the maximum with the zero block. -/
theorem k0_pay1_eq (x0 : Vec Ideal S2000x128 .f32) (x1 x2 : Vec Ideal S128 .f32) (x3 : Vec Ideal S128x128 .f32)
    (x4 : Vec Ideal S128 .f32) :
    Gen.k0_pay1 (F := Ideal) x0 x1 x2 x3 x4 =
      maximumf (Gen.k2_pay1 (F := Ideal) x0 x1 x2 x3 x4) (broadcast S2000x128 (Scalar.ofBits .f32 0x00000000#32)) := rfl

/-- The second body's stored value is the first's, word for word. -/
theorem k1_pay1_eq (x0 : Vec Ideal S2000x128 .f32) (x1 x2 : Vec Ideal S128 .f32) (x3 : Vec Ideal S128x128 .f32)
    (x4 : Vec Ideal S128 .f32) :
    Gen.k1_pay1 (F := Ideal) x0 x1 x2 x3 x4 = Gen.k0_pay1 (F := Ideal) x0 x1 x2 x3 x4 := rfl

/-! ## Each piece at an entry -/

/-- A lane sum of a [2000, 128] block, read at row p, is the sum of that row's 128 entries. -/
theorem rowSum_apply (v : FVec Ideal S2000x128 .f32) (p : Fin 2000) :
    rowSum v (ix1 p) = ∑ j : Fin 128, v (ix2 p j) := by
  refine (Ideal.multiReduction_add_single v 0x00000000#32 reduces_S2000x128_S2000 (.inl rfl) rfl (ix1 p)).trans ?_
  refine Finset.sum_congr rfl fun k _ => congrArg v (funext fun a => Fin.ext ?_)
  match a with
  | ⟨0, _⟩ => rfl
  | ⟨1, _⟩ => rfl

/-- The column of quotients, read at (p, u), is the vector's entry p divided by 128. -/
theorem colDiv_apply (s : FVec Ideal S2000 .f32) (p : Fin 2000) (u : Fin 1) :
    colDiv s (ix2 p u) = Ideal.div (s (ix1 p)) Cert.LnLin.c128 :=
  congrArg (fun t => Ideal.div t Cert.LnLin.c128) (Cert.Lib.Column.shapeCast_a_a1_apply s shapeCasts_S2000_S2000x1 p u)

/-- The centred block at (p, k): the entry minus the mean of row p. -/
theorem cen_apply (v : FVec Ideal S2000x128 .f32) (p : Fin 2000) (k : Fin 128) :
    cen v (ix2 p k) = v (ix2 p k) - Cert.LnLin.mean (fun j => v (ix2 p j)) := by
  refine congrArg (fun t => v (ix2 p k) - t) ?_
  refine (Cert.Lib.Column.broadcastTo_a1_ab_apply (colDiv (rowSum v)) broadcasts_S2000x1_S2000x128 p k).trans ?_
  refine (colDiv_apply (rowSum v) p 0).trans ?_
  exact congrArg (fun t => Ideal.div t Cert.LnLin.c128) (rowSum_apply v p)

/-- The spread reciprocal square root at (p, c): rsqrt of row p's variance plus epsilon, whatever the lane c. -/
theorem rstd_apply (v : FVec Ideal S2000x128 .f32) (p : Fin 2000) (c : Fin 128) :
    rstd v (ix2 p c) = Ideal.rsqrt (Cert.LnLin.var (fun j => v (ix2 p j)) + Cert.LnLin.cEps) := by
  refine (Cert.Lib.Column.broadcastTo_a1_ab_apply _ broadcasts_S2000x1_S2000x128 p c).trans ?_
  refine congrArg (fun t => Ideal.rsqrt (t + Cert.LnLin.cEps)) ?_
  refine (colDiv_apply (rowSum (mulf (cen v) (cen v))) p 0).trans ?_
  refine congrArg (fun t => Ideal.div t Cert.LnLin.c128) ?_
  refine (rowSum_apply (mulf (cen v) (cen v)) p).trans ?_
  exact Finset.sum_congr rfl fun j _ => congrArg (fun t => t * t) (cen_apply v p j)

/-- A vector repeated down the rows reads, at (p, k), its entry k. -/
theorem row_apply (w : FVec Ideal S128 .f32) (p : Fin 2000) (k : Fin 128) : row w (ix2 p k) = w (ix1 k) :=
  Cert.Gcn.rowBias_apply w shapeCasts_S128_S1x128 broadcasts_S1x128_S2000x128 p k

/-- The normalised block at (p, k) is the specification's normalised row p at k. -/
theorem nrm_apply (v : FVec Ideal S2000x128 .f32) (g be : FVec Ideal S128 .f32) (p : Fin 2000) (k : Fin 128) :
    nrm v g be (ix2 p k) =
      Cert.LnLin.normed (fun j => v (ix2 p j)) (fun j => g (ix1 j)) (fun j => be (ix1 j)) k := by
  show cen v (ix2 p k) * rstd v (ix2 p k) * row g (ix2 p k) + row be (ix2 p k) = _
  rw [cen_apply, rstd_apply, row_apply, row_apply]
  rfl

/-! ## The matmul at an entry -/

theorem dot_lhs_0 (i : S2000x128.Idx) (c : dot_S2000x128_S128x128_S2000x128_1_0_0_1_n_n.contr.Idx) : (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem dot_lhs_1 (i : S2000x128.Idx) (c : dot_S2000x128_S128x128_S2000x128_1_0_0_1_n_n.contr.Idx) : (dot_S2000x128_S128x128_S2000x128_1_0_0_1_n_n.lhsIdx i c 1).val = (c ⟨0, by decide⟩).val :=
  dot_S2000x128_S128x128_S2000x128_1_0_0_1_n_n.lhsIdx_val_of_single rfl i c

theorem dot_rhs_0 (i : S2000x128.Idx) (c : dot_S2000x128_S128x128_S2000x128_1_0_0_1_n_n.contr.Idx) : (dot_S2000x128_S128x128_S2000x128_1_0_0_1_n_n.rhsIdx i c 0).val = (c ⟨0, by decide⟩).val :=
  dot_S2000x128_S128x128_S2000x128_1_0_0_1_n_n.rhsIdx_val_of_single rfl i c

theorem dot_rhs_1 (i : S2000x128.Idx) (c : dot_S2000x128_S128x128_S2000x128_1_0_0_1_n_n.contr.Idx) : (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- An entry of the product of a [2000, 128] block with a [128, 128] matrix, accumulated into the zero block:
    row p of the one against column q of the other. -/
theorem matmul_entry {φ₁ φ₂ : FTy} (a : FVec Ideal S2000x128 φ₁) (b : FVec Ideal S128x128 φ₂) (p : Fin 2000) (q : Fin 128) :
    matmul (F := Ideal) dot_S2000x128_S128x128_S2000x128_1_0_0_1_n_n none a b (constant (F := Ideal) S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun c => Fin.ext (by
      match c with
      | ⟨0, _⟩ => exact dot_lhs_0 _ _
      | ⟨1, _⟩ => exact (dot_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun c => Fin.ext (by
      match c with
      | ⟨0, _⟩ => exact (dot_rhs_0 _ _).trans hk
      | ⟨1, _⟩ => exact dot_rhs_1 _ _)
  rw [el, er]

/-! ## The three bodies at an entry -/

/-- The third body (no rectifier) at entry (p, q). -/
theorem pay2_apply (x0 : Vec Ideal S2000x128 .f32) (x1 x2 : Vec Ideal S128 .f32) (x3 : Vec Ideal S128x128 .f32) (x4 : Vec Ideal S128 .f32) (p : Fin 2000) (q : Fin 128) :
    Gen.k2_pay1 (F := Ideal) x0 x1 x2 x3 x4 (ix2 p q) =
      Cert.LnLin.lin (fun j => x0 (ix2 p j)) (fun j => x1 (ix1 j)) (fun j => x2 (ix1 j)) (fun k q' => x3 (ix2 k q')) (fun q' => x4 (ix1 q')) q := by
  rw [k2_pay1_eq, shapeCast_self, addf_apply, matmul_entry, row_apply]
  refine congrArg (fun t => t + x4 (ix1 q)) (Finset.sum_congr rfl fun k _ => ?_)
  exact congrArg (fun t => t * x3 (ix2 k q)) (nrm_apply x0 x1 x2 p k)

/-- The first body (rectified) at entry (p, q). -/
theorem pay0_apply (x0 : Vec Ideal S2000x128 .f32) (x1 x2 : Vec Ideal S128 .f32) (x3 : Vec Ideal S128x128 .f32) (x4 : Vec Ideal S128 .f32) (p : Fin 2000) (q : Fin 128) :
    Gen.k0_pay1 (F := Ideal) x0 x1 x2 x3 x4 (ix2 p q) =
      Cert.LnLin.linRelu (fun j => x0 (ix2 p j)) (fun j => x1 (ix1 j)) (fun j => x2 (ix1 j)) (fun k q' => x3 (ix2 k q')) (fun q' => x4 (ix1 q')) q := by
  rw [k0_pay1_eq]
  exact congrArg (fun t => max t Cert.LnLin.cZero) (pay2_apply x0 x1 x2 x3 x4 p q)

/-- The second body (rectified) at entry (p, q): the same term as the first. -/
theorem pay1_apply (x0 : Vec Ideal S2000x128 .f32) (x1 x2 : Vec Ideal S128 .f32) (x3 : Vec Ideal S128x128 .f32) (x4 : Vec Ideal S128 .f32) (p : Fin 2000) (q : Fin 128) :
    Gen.k1_pay1 (F := Ideal) x0 x1 x2 x3 x4 (ix2 p q) =
      Cert.LnLin.linRelu (fun j => x0 (ix2 p j)) (fun j => x1 (ix1 j)) (fun j => x2 (ix1 j)) (fun k q' => x3 (ix2 k q')) (fun q' => x4 (ix1 q')) q :=
  pay0_apply x0 x1 x2 x3 x4 p q

end Cert.KernelIdeal.Payload

end
-- ==== Proof.Blocks.lean ====
/-
  From blocks to arrays: each launch's output array, after the launch, is one layer of the arrays it found in its
  operands.

  A launch walks 50 grid points; at point t it reads rows 2000 t … 2000 t + 1999 of its first operand and the whole
  of each parameter, and writes back the same rows of its output. Entry (p, q) of the block written at point t depends
  only on row p of the block read, which is row 2000 t + p of the operand's array, so the block written is the
  restriction of ONE function of the whole arrays — the layer — to those rows. The 50 blocks tile the 100000 rows
  (row r lies in block r / 2000), so after the launch the output array is that function everywhere.
-/
import proofs.«143838_j27779848471368_1_alg».proof.Proof.Gen.KernelIdeal.Frame
import proofs.«143838_j27779848471368_1_alg».proof.Proof.Spec
import Idealize.ShloMosaic.Lib.Pipeline.Value
import Idealize.ShloMosaic.Lib.ValueIdx
import proofs.«143838_j27779848471368_1_alg».proof.Proof.Payload

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-! ## Launch 0: its output array after the launch is the layer of its operands' arrays as it found them -/

/-- The printed index maps over the grid: the row blocks of the operand and of the output move with the point, every
    other coordinate and every parameter window stays at block 0. -/
theorem idx_facts0 : ∀ t : Fin cfg0.N, win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Every block of 2000 rows is some point's. -/
theorem idx_onto0 : ∀ q0 : Fin 50, ∃ t : Fin cfg0.N, win0_5.index t = ![q0.val, 0] :=
  (by decide +kernel : ∀ q0 : Fin 50, ∃ t : Fin grid0.N, win0_5.index t = ![q0.val, 0])

/-- One entry of the body's result, from blocks that are the operands' arrays read where the output's block lies. -/
theorem entry_of_blocks0 (X : Cert.LnLin.Mat) (g be : Cert.LnLin.V128) (W : Cert.LnLin.M128) (b : Cert.LnLin.V128)
    (x0 : Vec Ideal S2000x128 .f32) (x1 x2 : Vec Ideal S128 .f32) (x3 : Vec Ideal S128x128 .f32) (x4 : Vec Ideal S128 .f32)
    (y : S2000x128.Idx) (i : S100000x128.Idx)
    (h0 : ∀ j : Fin 128, x0 (ix2 (y 0) j) = X (ix2 (i 0) j))
    (h1 : ∀ j : Fin 128, x1 (ix1 j) = g (ix1 j)) (h2 : ∀ j : Fin 128, x2 (ix1 j) = be (ix1 j))
    (h3 : ∀ k q : Fin 128, x3 (ix2 k q) = W (ix2 k q)) (h4 : ∀ j : Fin 128, x4 (ix1 j) = b (ix1 j))
    (hq : (y 1).val = (i 1).val) :
    k0_pay1 (F := Ideal) x0 x1 x2 x3 x4 y = Cert.LnLin.layerRelu X g be W b i := by
  obtain ⟨p, q, rfl⟩ : ∃ (p : Fin 2000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hqq : q = q' := Fin.ext hq
  subst hqq
  rw [Cert.KernelIdeal.Payload.pay0_apply, Cert.LnLin.layerRelu_apply]
  have e0 : (fun j => x0 (ix2 p j)) = fun j => X (ix2 r j) := funext h0
  have e1 : (fun j => x1 (ix1 j)) = fun j => g (ix1 j) := funext h1
  have e2 : (fun j => x2 (ix1 j)) = fun j => be (ix1 j) := funext h2
  have e3 : (fun k q' => x3 (ix2 k q')) = fun k q' => W (ix2 k q') := funext fun k => funext fun q' => h3 k q'
  have e4 : (fun j => x4 (ix1 j)) = fun j => b (ix1 j) := funext h4
  rw [e0, e1, e2, e3, e4]

/-- What point t writes back is block t of the layer of the operands' arrays as the launch found them. -/
theorem flushed0_eq (c : Dev nD) (t : Fin cfg0.N) :
    (dat0 V c).flushed 5 t = ((cfg0.win 5).blk t).view.read (Elt Ideal)
      (Cert.LnLin.layerRelu (V c main_v9) (V c main_arg3) (V c main_arg4) (V c main_arg5) (V c main_arg6)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128) hz1, View.ld_unit_zero (S := S128x128) hz2]
  obtain ⟨a0, a1, a2, a3, a4, a5, a6, a7, a8⟩ := idx_facts0 t
  funext j
  refine entry_of_blocks0 (V c main_v9) (V c main_arg3) (V c main_arg4) (V c main_arg5) (V c main_arg6) _ _ _ _ _ j _ ?_ ?_ ?_ ?_ ?_ ?_
  · intro j'
    show V c main_v9 (((cfg0.win 0).blk t).view.emb (ix2 (j 0) j')) = V c main_v9 (ix2 ((((cfg0.win 5).blk t).view.emb j) 0) j')
    refine congrArg _ (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * j'.val = j'.val; omega
  · intro j'
    show V c main_arg3 (((cfg0.win 1).blk t).view.emb (ix1 j')) = V c main_arg3 (ix1 j')
    refine congrArg _ (funext fun a => Fin.ext ?_)
    match a with
    | ⟨0, _⟩ => show win0_1.index t (0 : Fin 1) * 128 + 1 * j'.val = j'.val; omega
  · intro j'
    show V c main_arg4 (((cfg0.win 2).blk t).view.emb (ix1 j')) = V c main_arg4 (ix1 j')
    refine congrArg _ (funext fun a => Fin.ext ?_)
    match a with
    | ⟨0, _⟩ => show win0_2.index t (0 : Fin 1) * 128 + 1 * j'.val = j'.val; omega
  · intro k q
    show V c main_arg5 (((cfg0.win 3).blk t).view.emb (ix2 k q)) = V c main_arg5 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · intro j'
    show V c main_arg6 (((cfg0.win 4).blk t).view.emb (ix1 j')) = V c main_arg6 (ix1 j')
    refine congrArg _ (funext fun a => Fin.ext ?_)
    match a with
    | ⟨0, _⟩ => show win0_4.index t (0 : Fin 1) * 128 + 1 * j'.val = j'.val; omega
  · show (j 1).val = win0_5.index t (1 : Fin 2) * 128 + 1 * (j 1).val
    omega

/-- An index of the output array is in point t's block iff its row lies in the block's 2000 rows. -/
theorem mem_blk0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v10).slice (win0_5.rect t)).set ↔ _
  rw [View.set_slice_whole, Rect.mem_set_unit]
  exact Iff.rfl

/-- The 50 blocks of 2000 rows tile the 100000 rows: row r lies in the block of point r / 2000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the launch: the layer of the operands' arrays as the launch found them. -/
theorem final0 (c : Dev nD) :
    (dat0 V c).arrAt 5 cfg0.N =
      Cert.LnLin.layerRelu (V c main_v9) (V c main_arg3) (V c main_arg4) (V c main_arg5) (V c main_arg6) :=
  (dat0 V c).arrAt_eq_of_cover 5 _ (fun t _ => flushed0_eq V c t) (cover0)

/-! ## Launch 1: its output array after the launch is the layer of its operands' arrays as it found them -/

/-- The printed index maps over the grid: the row blocks of the operand and of the output move with the point, every
    other coordinate and every parameter window stays at block 0. -/
theorem idx_facts1 : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Every block of 2000 rows is some point's. -/
theorem idx_onto1 : ∀ q0 : Fin 50, ∃ t : Fin cfg1.N, win1_5.index t = ![q0.val, 0] :=
  (by decide +kernel : ∀ q0 : Fin 50, ∃ t : Fin grid1.N, win1_5.index t = ![q0.val, 0])

/-- One entry of the body's result, from blocks that are the operands' arrays read where the output's block lies. -/
theorem entry_of_blocks1 (X : Cert.LnLin.Mat) (g be : Cert.LnLin.V128) (W : Cert.LnLin.M128) (b : Cert.LnLin.V128)
    (x0 : Vec Ideal S2000x128 .f32) (x1 x2 : Vec Ideal S128 .f32) (x3 : Vec Ideal S128x128 .f32) (x4 : Vec Ideal S128 .f32)
    (y : S2000x128.Idx) (i : S100000x128.Idx)
    (h0 : ∀ j : Fin 128, x0 (ix2 (y 0) j) = X (ix2 (i 0) j))
    (h1 : ∀ j : Fin 128, x1 (ix1 j) = g (ix1 j)) (h2 : ∀ j : Fin 128, x2 (ix1 j) = be (ix1 j))
    (h3 : ∀ k q : Fin 128, x3 (ix2 k q) = W (ix2 k q)) (h4 : ∀ j : Fin 128, x4 (ix1 j) = b (ix1 j))
    (hq : (y 1).val = (i 1).val) :
    k1_pay1 (F := Ideal) x0 x1 x2 x3 x4 y = Cert.LnLin.layerRelu X g be W b i := by
  obtain ⟨p, q, rfl⟩ : ∃ (p : Fin 2000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hqq : q = q' := Fin.ext hq
  subst hqq
  rw [Cert.KernelIdeal.Payload.pay1_apply, Cert.LnLin.layerRelu_apply]
  have e0 : (fun j => x0 (ix2 p j)) = fun j => X (ix2 r j) := funext h0
  have e1 : (fun j => x1 (ix1 j)) = fun j => g (ix1 j) := funext h1
  have e2 : (fun j => x2 (ix1 j)) = fun j => be (ix1 j) := funext h2
  have e3 : (fun k q' => x3 (ix2 k q')) = fun k q' => W (ix2 k q') := funext fun k => funext fun q' => h3 k q'
  have e4 : (fun j => x4 (ix1 j)) = fun j => b (ix1 j) := funext h4
  rw [e0, e1, e2, e3, e4]

/-- What point t writes back is block t of the layer of the operands' arrays as the launch found them. -/
theorem flushed1_eq (c : Dev nD) (t : Fin cfg1.N) :
    (dat1 V c).flushed 5 t = ((cfg1.win 5).blk t).view.read (Elt Ideal)
      (Cert.LnLin.layerRelu (V c main_v20) (V c main_arg7) (V c main_arg8) (V c main_arg9) (V c main_arg10)) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128) hz1, View.ld_unit_zero (S := S128x128) hz2]
  obtain ⟨a0, a1, a2, a3, a4, a5, a6, a7, a8⟩ := idx_facts1 t
  funext j
  refine entry_of_blocks1 (V c main_v20) (V c main_arg7) (V c main_arg8) (V c main_arg9) (V c main_arg10) _ _ _ _ _ j _ ?_ ?_ ?_ ?_ ?_ ?_
  · intro j'
    show V c main_v20 (((cfg1.win 0).blk t).view.emb (ix2 (j 0) j')) = V c main_v20 (ix2 ((((cfg1.win 5).blk t).view.emb j) 0) j')
    refine congrArg _ (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * j'.val = j'.val; omega
  · intro j'
    show V c main_arg7 (((cfg1.win 1).blk t).view.emb (ix1 j')) = V c main_arg7 (ix1 j')
    refine congrArg _ (funext fun a => Fin.ext ?_)
    match a with
    | ⟨0, _⟩ => show win1_1.index t (0 : Fin 1) * 128 + 1 * j'.val = j'.val; omega
  · intro j'
    show V c main_arg8 (((cfg1.win 2).blk t).view.emb (ix1 j')) = V c main_arg8 (ix1 j')
    refine congrArg _ (funext fun a => Fin.ext ?_)
    match a with
    | ⟨0, _⟩ => show win1_2.index t (0 : Fin 1) * 128 + 1 * j'.val = j'.val; omega
  · intro k q
    show V c main_arg9 (((cfg1.win 3).blk t).view.emb (ix2 k q)) = V c main_arg9 (ix2 k q)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · intro j'
    show V c main_arg10 (((cfg1.win 4).blk t).view.emb (ix1 j')) = V c main_arg10 (ix1 j')
    refine congrArg _ (funext fun a => Fin.ext ?_)
    match a with
    | ⟨0, _⟩ => show win1_4.index t (0 : Fin 1) * 128 + 1 * j'.val = j'.val; omega
  · show (j 1).val = win1_5.index t (1 : Fin 2) * 128 + 1 * (j 1).val
    omega

/-- An index of the output array is in point t's block iff its row lies in the block's 2000 rows. -/
theorem mem_blk1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v21).slice (win1_5.rect t)).set ↔ _
  rw [View.set_slice_whole, Rect.mem_set_unit]
  exact Iff.rfl

/-- The 50 blocks of 2000 rows tile the 100000 rows: row r lies in the block of point r / 2000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the launch: the layer of the operands' arrays as the launch found them. -/
theorem final1 (c : Dev nD) :
    (dat1 V c).arrAt 5 cfg1.N =
      Cert.LnLin.layerRelu (V c main_v20) (V c main_arg7) (V c main_arg8) (V c main_arg9) (V c main_arg10) :=
  (dat1 V c).arrAt_eq_of_cover 5 _ (fun t _ => flushed1_eq V c t) (cover1)

/-! ## Launch 2: its output array after the launch is the layer of its operands' arrays as it found them -/

/-- The printed index maps over the grid: the row blocks of the operand and of the output move with the point, every
    other coordinate and every parameter window stays at block 0. -/
theorem idx_facts2 : ∀ t : Fin cfg2.N, win2_0.index t (0 : Fin 2) = t.val ∧ win2_0.index t (1 : Fin 2) = 0
    ∧ win2_1.index t (0 : Fin 1) = 0 ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Every block of 2000 rows is some point's. -/
theorem idx_onto2 : ∀ q0 : Fin 50, ∃ t : Fin cfg2.N, win2_5.index t = ![q0.val, 0] :=
  (by decide +kernel : ∀ q0 : Fin 50, ∃ t : Fin grid2.N, win2_5.index t = ![q0.val, 0])

/-- One entry of the body's result, from blocks that are the operands' arrays read where the output's block lies. -/
theorem entry_of_blocks2 (X : Cert.LnLin.Mat) (g be : Cert.LnLin.V128) (W : Cert.LnLin.M128) (b : Cert.LnLin.V128)
    (x0 : Vec Ideal S2000x128 .f32) (x1 x2 : Vec Ideal S128 .f32) (x3 : Vec Ideal S128x128 .f32) (x4 : Vec Ideal S128 .f32)
    (y : S2000x128.Idx) (i : S100000x128.Idx)
    (h0 : ∀ j : Fin 128, x0 (ix2 (y 0) j) = X (ix2 (i 0) j))
    (h1 : ∀ j : Fin 128, x1 (ix1 j) = g (ix1 j)) (h2 : ∀ j : Fin 128, x2 (ix1 j) = be (ix1 j))
    (h3 : ∀ k q : Fin 128, x3 (ix2 k q) = W (ix2 k q)) (h4 : ∀ j : Fin 128, x4 (ix1 j) = b (ix1 j))
    (hq : (y 1).val = (i 1).val) :
    k2_pay1 (F := Ideal) x0 x1 x2 x3 x4 y = Cert.LnLin.layer X g be W b i := by
  obtain ⟨p, q, rfl⟩ : ∃ (p : Fin 2000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hqq : q = q' := Fin.ext hq
  subst hqq
  rw [Cert.KernelIdeal.Payload.pay2_apply, Cert.LnLin.layer_apply]
  have e0 : (fun j => x0 (ix2 p j)) = fun j => X (ix2 r j) := funext h0
  have e1 : (fun j => x1 (ix1 j)) = fun j => g (ix1 j) := funext h1
  have e2 : (fun j => x2 (ix1 j)) = fun j => be (ix1 j) := funext h2
  have e3 : (fun k q' => x3 (ix2 k q')) = fun k q' => W (ix2 k q') := funext fun k => funext fun q' => h3 k q'
  have e4 : (fun j => x4 (ix1 j)) = fun j => b (ix1 j) := funext h4
  rw [e0, e1, e2, e3, e4]

/-- What point t writes back is block t of the layer of the operands' arrays as the launch found them. -/
theorem flushed2_eq (c : Dev nD) (t : Fin cfg2.N) :
    (dat2 V c).flushed 5 t = ((cfg2.win 5).blk t).view.read (Elt Ideal)
      (Cert.LnLin.layer (V c main_v31) (V c main_arg11) (V c main_arg12) (V c main_arg13) (V c main_arg14)) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S128) hz1, View.ld_unit_zero (S := S128x128) hz2]
  obtain ⟨a0, a1, a2, a3, a4, a5, a6, a7, a8⟩ := idx_facts2 t
  funext j
  refine entry_of_blocks2 (V c main_v31) (V c main_arg11) (V c main_arg12) (V c main_arg13) (V c main_arg14) _ _ _ _ _ j _ ?_ ?_ ?_ ?_ ?_ ?_
  · intro j'
    show V c main_v31 (((cfg2.win 0).blk t).view.emb (ix2 (j 0) j')) = V c main_v31 (ix2 ((((cfg2.win 5).blk t).view.emb j) 0) j')
    refine congrArg _ (funext fun a => Fin.ext ?_)
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * j'.val = j'.val; omega
  · intro j'
    show V c main_arg11 (((cfg2.win 1).blk t).view.emb (ix1 j')) = V c main_arg11 (ix1 j')
    refine congrArg _ (funext fun a => Fin.ext ?_)
    match a with
    | ⟨0, _⟩ => show win2_1.index t (0 : Fin 1) * 128 + 1 * j'.val = j'.val; omega
  · intro j'
    show V c main_arg12 (((cfg2.win 2).blk t).view.emb (ix1 j')) = V c main_arg12 (ix1 j')
    refine congrArg _ (funext fun a => Fin.ext ?_)
    match a with
    | ⟨0, _⟩ => show win2_2.index t (0 : Fin 1) * 128 + 1 * j'.val = j'.val; omega
  · intro k q
    show V c main_arg13 (((cfg2.win 3).blk t).view.emb (ix2 k q)) = V c main_arg13 (ix2 k q)
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  · intro j'
    show V c main_arg14 (((cfg2.win 4).blk t).view.emb (ix1 j')) = V c main_arg14 (ix1 j')
    refine congrArg _ (funext fun a => Fin.ext ?_)
    match a with
    | ⟨0, _⟩ => show win2_4.index t (0 : Fin 1) * 128 + 1 * j'.val = j'.val; omega
  · show (j 1).val = win2_5.index t (1 : Fin 2) * 128 + 1 * (j 1).val
    omega

/-- An index of the output array is in point t's block iff its row lies in the block's 2000 rows. -/
theorem mem_blk2 (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v32).slice (win2_5.rect t)).set ↔ _
  rw [View.set_slice_whole, Rect.mem_set_unit]
  exact Iff.rfl

/-- The 50 blocks of 2000 rows tile the 100000 rows: row r lies in the block of point r / 2000. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The output array after the launch: the layer of the operands' arrays as the launch found them. -/
theorem final2 (c : Dev nD) :
    (dat2 V c).arrAt 5 cfg2.N =
      Cert.LnLin.layer (V c main_v31) (V c main_arg11) (V c main_arg12) (V c main_arg13) (V c main_arg14) :=
  (dat2 V c).arrAt_eq_of_cover 5 _ (fun t _ => flushed2_eq V c t) (cover2)

end Cert.KernelIdeal.Blocks

end
-- ==== Proof.KernelRun.lean ====
/-
  The kernel's run, with its result named.

  The program is three kernel launches among stretches of host operations. From any launch memory every weakly fair
  execution terminates without a fault, and at the end every buffer that outlives a launch holds what the fold of the
  segments leaves in it: host operations applied in order, and, across a launch, each of its arrays at what the
  pipeline's write-backs leave. This module states that run once more with the result buffer read off the final
  contents (beside the arguments, which end as launched): the result is whatever the last launch's output array holds.
-/
import proofs.«143838_j27779848471368_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the final
    contents of the last launch's output array, and the argument arrays end as launched. -/
theorem run_result : θ_run defs (onTc (τ := τ) (main (F := F))) ⟨m, fun _ => 0, ρ⟩ (fun r => ∀ c : Dev nD,
      r.2.mem ((c.tc : Thread nD τ).loc main_v32) = W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v32 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.KRun

end
-- ==== Proof.KernelHost.lean ====
/-
  The host side of the kernel program: what each launch finds in its operands.

  Between the launches the program aggregates on the host: it normalises the source indices, gathers the rows they
  name, and adds them into the rows the destination indices name, starting from zeros. That step is stated here once,
  closed, as a function of the two index vectors and of the matrix it aggregates; it is never opened. Each launch then
  finds: in its first operand the aggregation of what came before (the features, or the previous launch's output
  array), and in the others the layer's own parameters, untouched since the program started, because no host
  operation and no launch writes an argument.
-/
import proofs.«143838_j27779848471368_1_alg».proof.Proof.Gen.KernelIdeal.Frame
import proofs.«143838_j27779848471368_1_alg».proof.Proof.Spec
import proofs.«143838_j27779848471368_1_alg».proof.Proof.Blocks
import proofs.«143838_j27779848471368_1_alg».proof.Proof.KernelRun
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.StableHlo Idealize.SL.Sem

/-- The aggregation step as the kernel program's host operations spell it: a negative source index is shifted up by
    the number of rows, the rows the source indices name are gathered, and they are added into a matrix of zeros at
    the rows the destination indices name. -/
def agg (src dst : (⟨S1600000, .i32⟩ : BufTy).Contents (Elt Ideal)) (X : Cert.LnLin.Mat) : Cert.LnLin.Mat :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 X
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (m : (ℓ : Loc nD τ sig) → Buf (Elt Ideal) ℓ) (ρ : Dev nD → PrngReg)

/-! ## The arguments through the fold: no host operation and no launch writes one -/

theorem keep1_1 (c : Dev nD) : W1 m ρ c (Proc.devRef .tc main_arg1) = (m ((c.tc : Thread nD τ).loc main_arg1)) := by
  show StableHlo.after hostOps0 (W0 m ρ c) (Proc.devRef .tc main_arg1) = _
  after_results
theorem keep1_2 (c : Dev nD) : W1 m ρ c (Proc.devRef .tc main_arg2) = (m ((c.tc : Thread nD τ).loc main_arg2)) := by
  show StableHlo.after hostOps0 (W0 m ρ c) (Proc.devRef .tc main_arg2) = _
  after_results
theorem keep1_3 (c : Dev nD) : W1 m ρ c (Proc.devRef .tc main_arg3) = (m ((c.tc : Thread nD τ).loc main_arg3)) := by
  show StableHlo.after hostOps0 (W0 m ρ c) (Proc.devRef .tc main_arg3) = _
  after_results
theorem keep1_4 (c : Dev nD) : W1 m ρ c (Proc.devRef .tc main_arg4) = (m ((c.tc : Thread nD τ).loc main_arg4)) := by
  show StableHlo.after hostOps0 (W0 m ρ c) (Proc.devRef .tc main_arg4) = _
  after_results
theorem keep1_5 (c : Dev nD) : W1 m ρ c (Proc.devRef .tc main_arg5) = (m ((c.tc : Thread nD τ).loc main_arg5)) := by
  show StableHlo.after hostOps0 (W0 m ρ c) (Proc.devRef .tc main_arg5) = _
  after_results
theorem keep1_6 (c : Dev nD) : W1 m ρ c (Proc.devRef .tc main_arg6) = (m ((c.tc : Thread nD τ).loc main_arg6)) := by
  show StableHlo.after hostOps0 (W0 m ρ c) (Proc.devRef .tc main_arg6) = _
  after_results
theorem keep1_7 (c : Dev nD) : W1 m ρ c (Proc.devRef .tc main_arg7) = (m ((c.tc : Thread nD τ).loc main_arg7)) := by
  show StableHlo.after hostOps0 (W0 m ρ c) (Proc.devRef .tc main_arg7) = _
  after_results
theorem keep1_8 (c : Dev nD) : W1 m ρ c (Proc.devRef .tc main_arg8) = (m ((c.tc : Thread nD τ).loc main_arg8)) := by
  show StableHlo.after hostOps0 (W0 m ρ c) (Proc.devRef .tc main_arg8) = _
  after_results
theorem keep1_9 (c : Dev nD) : W1 m ρ c (Proc.devRef .tc main_arg9) = (m ((c.tc : Thread nD τ).loc main_arg9)) := by
  show StableHlo.after hostOps0 (W0 m ρ c) (Proc.devRef .tc main_arg9) = _
  after_results
theorem keep1_10 (c : Dev nD) : W1 m ρ c (Proc.devRef .tc main_arg10) = (m ((c.tc : Thread nD τ).loc main_arg10)) := by
  show StableHlo.after hostOps0 (W0 m ρ c) (Proc.devRef .tc main_arg10) = _
  after_results
theorem keep1_11 (c : Dev nD) : W1 m ρ c (Proc.devRef .tc main_arg11) = (m ((c.tc : Thread nD τ).loc main_arg11)) := by
  show StableHlo.after hostOps0 (W0 m ρ c) (Proc.devRef .tc main_arg11) = _
  after_results
theorem keep1_12 (c : Dev nD) : W1 m ρ c (Proc.devRef .tc main_arg12) = (m ((c.tc : Thread nD τ).loc main_arg12)) := by
  show StableHlo.after hostOps0 (W0 m ρ c) (Proc.devRef .tc main_arg12) = _
  after_results
theorem keep1_13 (c : Dev nD) : W1 m ρ c (Proc.devRef .tc main_arg13) = (m ((c.tc : Thread nD τ).loc main_arg13)) := by
  show StableHlo.after hostOps0 (W0 m ρ c) (Proc.devRef .tc main_arg13) = _
  after_results
theorem keep1_14 (c : Dev nD) : W1 m ρ c (Proc.devRef .tc main_arg14) = (m ((c.tc : Thread nD τ).loc main_arg14)) := by
  show StableHlo.after hostOps0 (W0 m ρ c) (Proc.devRef .tc main_arg14) = _
  after_results

theorem keep2_1 (c : Dev nD) : W2 m ρ c (Proc.devRef .tc main_arg1) = (m ((c.tc : Thread nD τ).loc main_arg1)) :=
  (W2_of_ne m ρ c main_arg1 (by decide)).trans (keep1_1 m ρ c)
theorem keep2_2 (c : Dev nD) : W2 m ρ c (Proc.devRef .tc main_arg2) = (m ((c.tc : Thread nD τ).loc main_arg2)) :=
  (W2_of_ne m ρ c main_arg2 (by decide)).trans (keep1_2 m ρ c)
theorem keep2_7 (c : Dev nD) : W2 m ρ c (Proc.devRef .tc main_arg7) = (m ((c.tc : Thread nD τ).loc main_arg7)) :=
  (W2_of_ne m ρ c main_arg7 (by decide)).trans (keep1_7 m ρ c)
theorem keep2_8 (c : Dev nD) : W2 m ρ c (Proc.devRef .tc main_arg8) = (m ((c.tc : Thread nD τ).loc main_arg8)) :=
  (W2_of_ne m ρ c main_arg8 (by decide)).trans (keep1_8 m ρ c)
theorem keep2_9 (c : Dev nD) : W2 m ρ c (Proc.devRef .tc main_arg9) = (m ((c.tc : Thread nD τ).loc main_arg9)) :=
  (W2_of_ne m ρ c main_arg9 (by decide)).trans (keep1_9 m ρ c)
theorem keep2_10 (c : Dev nD) : W2 m ρ c (Proc.devRef .tc main_arg10) = (m ((c.tc : Thread nD τ).loc main_arg10)) :=
  (W2_of_ne m ρ c main_arg10 (by decide)).trans (keep1_10 m ρ c)
theorem keep2_11 (c : Dev nD) : W2 m ρ c (Proc.devRef .tc main_arg11) = (m ((c.tc : Thread nD τ).loc main_arg11)) :=
  (W2_of_ne m ρ c main_arg11 (by decide)).trans (keep1_11 m ρ c)
theorem keep2_12 (c : Dev nD) : W2 m ρ c (Proc.devRef .tc main_arg12) = (m ((c.tc : Thread nD τ).loc main_arg12)) :=
  (W2_of_ne m ρ c main_arg12 (by decide)).trans (keep1_12 m ρ c)
theorem keep2_13 (c : Dev nD) : W2 m ρ c (Proc.devRef .tc main_arg13) = (m ((c.tc : Thread nD τ).loc main_arg13)) :=
  (W2_of_ne m ρ c main_arg13 (by decide)).trans (keep1_13 m ρ c)
theorem keep2_14 (c : Dev nD) : W2 m ρ c (Proc.devRef .tc main_arg14) = (m ((c.tc : Thread nD τ).loc main_arg14)) :=
  (W2_of_ne m ρ c main_arg14 (by decide)).trans (keep1_14 m ρ c)

theorem keep3_1 (c : Dev nD) : W3 m ρ c (Proc.devRef .tc main_arg1) = (m ((c.tc : Thread nD τ).loc main_arg1)) := by
  show StableHlo.after hostOps1 (W2 m ρ c) (Proc.devRef .tc main_arg1) = _
  after_results
  exact keep2_1 m ρ c
theorem keep3_2 (c : Dev nD) : W3 m ρ c (Proc.devRef .tc main_arg2) = (m ((c.tc : Thread nD τ).loc main_arg2)) := by
  show StableHlo.after hostOps1 (W2 m ρ c) (Proc.devRef .tc main_arg2) = _
  after_results
  exact keep2_2 m ρ c
theorem keep3_7 (c : Dev nD) : W3 m ρ c (Proc.devRef .tc main_arg7) = (m ((c.tc : Thread nD τ).loc main_arg7)) := by
  show StableHlo.after hostOps1 (W2 m ρ c) (Proc.devRef .tc main_arg7) = _
  after_results
  exact keep2_7 m ρ c
theorem keep3_8 (c : Dev nD) : W3 m ρ c (Proc.devRef .tc main_arg8) = (m ((c.tc : Thread nD τ).loc main_arg8)) := by
  show StableHlo.after hostOps1 (W2 m ρ c) (Proc.devRef .tc main_arg8) = _
  after_results
  exact keep2_8 m ρ c
theorem keep3_9 (c : Dev nD) : W3 m ρ c (Proc.devRef .tc main_arg9) = (m ((c.tc : Thread nD τ).loc main_arg9)) := by
  show StableHlo.after hostOps1 (W2 m ρ c) (Proc.devRef .tc main_arg9) = _
  after_results
  exact keep2_9 m ρ c
theorem keep3_10 (c : Dev nD) : W3 m ρ c (Proc.devRef .tc main_arg10) = (m ((c.tc : Thread nD τ).loc main_arg10)) := by
  show StableHlo.after hostOps1 (W2 m ρ c) (Proc.devRef .tc main_arg10) = _
  after_results
  exact keep2_10 m ρ c
theorem keep3_11 (c : Dev nD) : W3 m ρ c (Proc.devRef .tc main_arg11) = (m ((c.tc : Thread nD τ).loc main_arg11)) := by
  show StableHlo.after hostOps1 (W2 m ρ c) (Proc.devRef .tc main_arg11) = _
  after_results
  exact keep2_11 m ρ c
theorem keep3_12 (c : Dev nD) : W3 m ρ c (Proc.devRef .tc main_arg12) = (m ((c.tc : Thread nD τ).loc main_arg12)) := by
  show StableHlo.after hostOps1 (W2 m ρ c) (Proc.devRef .tc main_arg12) = _
  after_results
  exact keep2_12 m ρ c
theorem keep3_13 (c : Dev nD) : W3 m ρ c (Proc.devRef .tc main_arg13) = (m ((c.tc : Thread nD τ).loc main_arg13)) := by
  show StableHlo.after hostOps1 (W2 m ρ c) (Proc.devRef .tc main_arg13) = _
  after_results
  exact keep2_13 m ρ c
theorem keep3_14 (c : Dev nD) : W3 m ρ c (Proc.devRef .tc main_arg14) = (m ((c.tc : Thread nD τ).loc main_arg14)) := by
  show StableHlo.after hostOps1 (W2 m ρ c) (Proc.devRef .tc main_arg14) = _
  after_results
  exact keep2_14 m ρ c

theorem keep4_1 (c : Dev nD) : W4 m ρ c (Proc.devRef .tc main_arg1) = (m ((c.tc : Thread nD τ).loc main_arg1)) :=
  (W4_of_ne m ρ c main_arg1 (by decide)).trans (keep3_1 m ρ c)
theorem keep4_2 (c : Dev nD) : W4 m ρ c (Proc.devRef .tc main_arg2) = (m ((c.tc : Thread nD τ).loc main_arg2)) :=
  (W4_of_ne m ρ c main_arg2 (by decide)).trans (keep3_2 m ρ c)
theorem keep4_11 (c : Dev nD) : W4 m ρ c (Proc.devRef .tc main_arg11) = (m ((c.tc : Thread nD τ).loc main_arg11)) :=
  (W4_of_ne m ρ c main_arg11 (by decide)).trans (keep3_11 m ρ c)
theorem keep4_12 (c : Dev nD) : W4 m ρ c (Proc.devRef .tc main_arg12) = (m ((c.tc : Thread nD τ).loc main_arg12)) :=
  (W4_of_ne m ρ c main_arg12 (by decide)).trans (keep3_12 m ρ c)
theorem keep4_13 (c : Dev nD) : W4 m ρ c (Proc.devRef .tc main_arg13) = (m ((c.tc : Thread nD τ).loc main_arg13)) :=
  (W4_of_ne m ρ c main_arg13 (by decide)).trans (keep3_13 m ρ c)
theorem keep4_14 (c : Dev nD) : W4 m ρ c (Proc.devRef .tc main_arg14) = (m ((c.tc : Thread nD τ).loc main_arg14)) :=
  (W4_of_ne m ρ c main_arg14 (by decide)).trans (keep3_14 m ρ c)

theorem keep5_11 (c : Dev nD) : W5 m ρ c (Proc.devRef .tc main_arg11) = (m ((c.tc : Thread nD τ).loc main_arg11)) := by
  show StableHlo.after hostOps2 (W4 m ρ c) (Proc.devRef .tc main_arg11) = _
  after_results
  exact keep4_11 m ρ c
theorem keep5_12 (c : Dev nD) : W5 m ρ c (Proc.devRef .tc main_arg12) = (m ((c.tc : Thread nD τ).loc main_arg12)) := by
  show StableHlo.after hostOps2 (W4 m ρ c) (Proc.devRef .tc main_arg12) = _
  after_results
  exact keep4_12 m ρ c
theorem keep5_13 (c : Dev nD) : W5 m ρ c (Proc.devRef .tc main_arg13) = (m ((c.tc : Thread nD τ).loc main_arg13)) := by
  show StableHlo.after hostOps2 (W4 m ρ c) (Proc.devRef .tc main_arg13) = _
  after_results
  exact keep4_13 m ρ c
theorem keep5_14 (c : Dev nD) : W5 m ρ c (Proc.devRef .tc main_arg14) = (m ((c.tc : Thread nD τ).loc main_arg14)) := by
  show StableHlo.after hostOps2 (W4 m ρ c) (Proc.devRef .tc main_arg14) = _
  after_results
  exact keep4_14 m ρ c

/-! ## The first launch -/

/-- Its first operand is the aggregation of the features. -/
theorem entry0_x (c : Dev nD) : V1 m ρ c main_v9 = agg (m ((c.tc : Thread nD τ).loc main_arg1)) (m ((c.tc : Thread nD τ).loc main_arg2)) (m ((c.tc : Thread nD τ).loc main_arg0)) := by
  show StableHlo.after hostOps0 (W0 m ρ c) (Proc.devRef .tc main_v9) = _
  after_results
  rfl

/-- Its output array is the first layer of the aggregated features. -/
theorem out0 (c : Dev nD) : W2 m ρ c (Proc.devRef .tc main_v10) = (Cert.LnLin.layerRelu (agg (m ((c.tc : Thread nD τ).loc main_arg1)) (m ((c.tc : Thread nD τ).loc main_arg2)) (m ((c.tc : Thread nD τ).loc main_arg0))) (m ((c.tc : Thread nD τ).loc main_arg3)) (m ((c.tc : Thread nD τ).loc main_arg4)) (m ((c.tc : Thread nD τ).loc main_arg5)) (m ((c.tc : Thread nD τ).loc main_arg6))) := by
  refine (W2_arr m ρ c 5).trans ((Cert.KernelIdeal.Blocks.final0 (V1 m ρ) c).trans ?_)
  show Cert.LnLin.layerRelu (V1 m ρ c main_v9) (W1 m ρ c (Proc.devRef .tc main_arg3)) (W1 m ρ c (Proc.devRef .tc main_arg4)) (W1 m ρ c (Proc.devRef .tc main_arg5)) (W1 m ρ c (Proc.devRef .tc main_arg6)) = _
  rw [entry0_x m ρ c, keep1_3 m ρ c, keep1_4 m ρ c, keep1_5 m ρ c, keep1_6 m ρ c]

/-! ## The second launch -/

/-- Its first operand is the aggregation of the first launch's output array. -/
theorem entry1_x (c : Dev nD) : V3 m ρ c main_v20 = agg (m ((c.tc : Thread nD τ).loc main_arg1)) (m ((c.tc : Thread nD τ).loc main_arg2)) (W2 m ρ c (Proc.devRef .tc main_v10)) := by
  show StableHlo.after hostOps1 (W2 m ρ c) (Proc.devRef .tc main_v20) = _
  after_results
  rw [keep2_1 m ρ c, keep2_2 m ρ c]
  rfl

/-- Its output array is the second layer. -/
theorem out1 (c : Dev nD) : W4 m ρ c (Proc.devRef .tc main_v21) = (Cert.LnLin.layerRelu (agg (m ((c.tc : Thread nD τ).loc main_arg1)) (m ((c.tc : Thread nD τ).loc main_arg2)) (Cert.LnLin.layerRelu (agg (m ((c.tc : Thread nD τ).loc main_arg1)) (m ((c.tc : Thread nD τ).loc main_arg2)) (m ((c.tc : Thread nD τ).loc main_arg0))) (m ((c.tc : Thread nD τ).loc main_arg3)) (m ((c.tc : Thread nD τ).loc main_arg4)) (m ((c.tc : Thread nD τ).loc main_arg5)) (m ((c.tc : Thread nD τ).loc main_arg6)))) (m ((c.tc : Thread nD τ).loc main_arg7)) (m ((c.tc : Thread nD τ).loc main_arg8)) (m ((c.tc : Thread nD τ).loc main_arg9)) (m ((c.tc : Thread nD τ).loc main_arg10))) := by
  refine (W4_arr m ρ c 5).trans ((Cert.KernelIdeal.Blocks.final1 (V3 m ρ) c).trans ?_)
  show Cert.LnLin.layerRelu (V3 m ρ c main_v20) (W3 m ρ c (Proc.devRef .tc main_arg7)) (W3 m ρ c (Proc.devRef .tc main_arg8)) (W3 m ρ c (Proc.devRef .tc main_arg9)) (W3 m ρ c (Proc.devRef .tc main_arg10)) = _
  rw [entry1_x m ρ c, out0 m ρ c, keep3_7 m ρ c, keep3_8 m ρ c, keep3_9 m ρ c, keep3_10 m ρ c]

/-! ## The third launch, and the program's result -/

/-- Its first operand is the aggregation of the second launch's output array. -/
theorem entry2_x (c : Dev nD) : V5 m ρ c main_v31 = agg (m ((c.tc : Thread nD τ).loc main_arg1)) (m ((c.tc : Thread nD τ).loc main_arg2)) (W4 m ρ c (Proc.devRef .tc main_v21)) := by
  show StableHlo.after hostOps2 (W4 m ρ c) (Proc.devRef .tc main_v31) = _
  after_results
  rw [keep4_1 m ρ c, keep4_2 m ρ c]
  rfl

/-- The result buffer, after the run, holds the network of the arguments. -/
theorem result_value (c : Dev nD) : W6 m ρ c (Proc.devRef .tc main_v32) =
    Cert.LnLin.net (agg (m ((c.tc : Thread nD τ).loc main_arg1)) (m ((c.tc : Thread nD τ).loc main_arg2))) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (W6_arr m ρ c 5).trans ((Cert.KernelIdeal.Blocks.final2 (V5 m ρ) c).trans ?_)
  show Cert.LnLin.layer (V5 m ρ c main_v31) (W5 m ρ c (Proc.devRef .tc main_arg11)) (W5 m ρ c (Proc.devRef .tc main_arg12)) (W5 m ρ c (Proc.devRef .tc main_arg13)) (W5 m ρ c (Proc.devRef .tc main_arg14)) = _
  rw [entry2_x m ρ c, out1 m ρ c, keep5_11 m ρ c, keep5_12 m ρ c, keep5_13 m ρ c, keep5_14 m ρ c]
  rfl

/-- The kernel program's run: it terminates without a fault, its result is the network of its arguments, and the
    arguments end as launched. -/
theorem run : θ_run defs (onTc (τ := τ) (main (F := Ideal))) ⟨m, fun _ => 0, ρ⟩ (fun r => ∀ c : Dev nD,
      r.2.mem ((c.tc : Thread nD τ).loc main_v32) =
        Cert.LnLin.net (agg (m ((c.tc : Thread nD τ).loc main_arg1)) (m ((c.tc : Thread nD τ).loc main_arg2))) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (result_value m ρ c), (h c).2⟩)
    (Cert.KernelIdeal.KRun.run_result (F := Ideal) m ρ)

end Cert.KernelIdeal.KHost

end
-- ==== Proof.RefValue.lean ====
/-
  The reference program computes the specification.

  The reference's result, read one entry at a time through the generated read-at-an-index lemmas, is the network of
  Spec.lean: three layers (row mean, row variance, normalisation with scale and shift, a product with a [128, 128]
  matrix, a bias, and in the first two layers a maximum with zero), each fed by the aggregation of what came before.
  The aggregation (gather the rows named by src, add them into the rows named by dst) is kept closed: each layer's
  lemma is about whatever matrix the scatter-add stage holds, and the three scatter-add stages are the same function
  `agg src dst` of the matrix they aggregate. The host sums start from the zero word, which is the real 0; the words
  for 128 and for epsilon are never evaluated.
-/
import proofs.«143838_j27779848471368_1_alg».proof.Proof.Gen.ReferenceIdeal.Read
import proofs.«143838_j27779848471368_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem
open scoped BigOperators

/-- The aggregation step as the reference spells it on the host (gather the rows named by src, add them into the rows named by dst), closed: never unfolded. -/
def agg (src dst : (⟨S1600000, .i32⟩ : BufTy).Contents (Elt Ideal)) (X : Cert.LnLin.Mat) : Cert.LnLin.Mat :=
  Read.val_main_v9 (F := Ideal) X src dst

variable (x0 : (⟨S100000x128, .f32⟩ : BufTy).Contents (Elt Ideal)) (x1 x2 : (⟨S1600000, .i32⟩ : BufTy).Contents (Elt Ideal))
  (x3 x4 : (⟨S128, .f32⟩ : BufTy).Contents (Elt Ideal)) (x5 : (⟨S128x128, .f32⟩ : BufTy).Contents (Elt Ideal))
  (x6 x7 x8 : (⟨S128, .f32⟩ : BufTy).Contents (Elt Ideal)) (x9 : (⟨S128x128, .f32⟩ : BufTy).Contents (Elt Ideal))
  (x10 x11 x12 : (⟨S128, .f32⟩ : BufTy).Contents (Elt Ideal)) (x13 : (⟨S128x128, .f32⟩ : BufTy).Contents (Elt Ideal))
  (x14 : (⟨S128, .f32⟩ : BufTy).Contents (Elt Ideal))

/-! ### Layer 1 -/

/-- Layer 1: the row sum of the aggregated matrix (the host sum starts from the zero word, which is 0). -/
theorem rowsum1 (r : Fin 100000) :
    val_main_v10 (F := Ideal) x0 x1 x2 (ix1 r) = ∑ k : Fin 128, val_main_v9 (F := Ideal) x0 x1 x2 (ix2 r k) := by
  rw [val_main_v10_apply, val_main_cst_1_apply, Ideal.ofBits_def, Ideal.ofBits_zero_f32, zero_add]
  refine Finset.sum_congr rfl fun k _ => congrArg _ ?_
  exact funext fun a => Fin.ext (by match a with | ⟨0, _⟩ => rfl | ⟨1, _⟩ => rfl)

/-- Layer 1: the kept-dimension column of row means is the specification's mean of the row. -/
theorem mean1 (r : Fin 100000) :
    val_main_v13 (F := Ideal) x0 x1 x2 (ix2 r (0 : Fin 1)) = Cert.LnLin.mean (fun j => val_main_v9 (F := Ideal) x0 x1 x2 (ix2 r j)) := by
  rw [val_main_v13_apply, val_main_v11_apply, val_main_v12_apply, val_main_cst_2_apply, Ideal.hostDivf_def, Ideal.ofBits_def,
    show idx_main_v11 (ix2 r (0 : Fin 1)) = ix1 r from funext fun a => Fin.ext (by match a with | ⟨0, _⟩ => rfl), rowsum1]
  rfl

/-- Layer 1: an entry's deviation from its row mean. -/
theorem dev1 (r : Fin 100000) (k : Fin 128) :
    val_main_v15 (F := Ideal) x0 x1 x2 (ix2 r k) = val_main_v9 (F := Ideal) x0 x1 x2 (ix2 r k) - Cert.LnLin.mean (fun j => val_main_v9 (F := Ideal) x0 x1 x2 (ix2 r j)) := by
  rw [val_main_v15_apply, val_main_v14_apply, Ideal.subf_def,
    show idx_main_v14 (ix2 r k) = ix2 r (0 : Fin 1) from funext fun a => Fin.ext (by match a with | ⟨0, _⟩ => rfl | ⟨1, _⟩ => rfl), mean1]

/-- Layer 1: the kept-dimension column of row variances is the specification's variance of the row. -/
theorem var1 (r : Fin 100000) :
    val_main_v20 (F := Ideal) x0 x1 x2 (ix2 r (0 : Fin 1)) = Cert.LnLin.var (fun j => val_main_v9 (F := Ideal) x0 x1 x2 (ix2 r j)) := by
  rw [val_main_v20_apply, val_main_v18_apply, val_main_v19_apply, val_main_cst_4_apply, Ideal.hostDivf_def, Ideal.ofBits_def,
    show idx_main_v18 (ix2 r (0 : Fin 1)) = ix1 r from funext fun a => Fin.ext (by match a with | ⟨0, _⟩ => rfl),
    val_main_v17_apply, val_main_cst_3_apply, Ideal.ofBits_def, Ideal.ofBits_zero_f32, zero_add]
  unfold Cert.LnLin.var
  refine congrArg (fun s => Ideal.div s Cert.LnLin.c128) (Finset.sum_congr rfl fun k _ => ?_)
  rw [val_main_v16_apply, Ideal.mulf_def, show idx_main_v17 (ix1 r) k = ix2 r k from funext fun a => Fin.ext (by match a with | ⟨0, _⟩ => rfl | ⟨1, _⟩ => rfl), dev1]

/-- Layer 1: the normalised, scaled and shifted entry is the specification's. -/
theorem normed1 (r : Fin 100000) (k : Fin 128) :
    val_main_v33 (F := Ideal) x0 x1 x2 x3 x4 (ix2 r k) =
      Cert.LnLin.normed (fun j => val_main_v9 (F := Ideal) x0 x1 x2 (ix2 r j)) (fun j => x3 (ix1 j)) (fun j => x4 (ix1 j)) k := by
  rw [val_main_v33_apply, val_main_v30_apply, val_main_v27_apply, val_main_v22_apply, val_main_v21_apply, val_main_v26_apply, val_main_v25_apply,
    val_main_v24_apply, val_main_v23_apply, val_main_cst_5_apply, val_main_v29_apply, val_main_v28_apply, val_main_v32_apply, val_main_v31_apply,
    show idx_main_v21 (ix2 r k) = ix2 r (0 : Fin 1) from funext fun a => Fin.ext (by match a with | ⟨0, _⟩ => rfl | ⟨1, _⟩ => rfl),
    show idx_main_v26 (ix2 r k) = ix2 r (0 : Fin 1) from funext fun a => Fin.ext (by match a with | ⟨0, _⟩ => rfl | ⟨1, _⟩ => rfl),
    show idx_main_v28 (idx_main_v29 (ix2 r k)) = ix1 k from funext fun a => Fin.ext (by match a with | ⟨0, _⟩ => rfl),
    show idx_main_v31 (idx_main_v32 (ix2 r k)) = ix1 k from funext fun a => Fin.ext (by match a with | ⟨0, _⟩ => rfl),
    mean1, var1]
  simp only [Ideal.addf_def, Ideal.mulf_def, Ideal.subf_def, Ideal.hostUnary_rsqrt_def, Ideal.ofBits_def]
  rfl

/-- Layer 1 as a whole: the reference's stage is the specification's layer of the aggregated matrix. -/
theorem layer1_raw :
    val_main_v38 (F := Ideal) x0 x1 x2 x3 x4 x5 x6 = Cert.LnLin.layerRelu (val_main_v9 (F := Ideal) x0 x1 x2) x3 x4 x5 x6 := by
  funext i
  obtain ⟨r, q, rfl⟩ : ∃ (r : Fin 100000) (q : Fin 128), i = ix2 r q := ⟨i 0, i 1, eq_ix2 i⟩
  rw [Cert.LnLin.layerRelu_apply, val_main_v38_apply, val_main_call0_v0_apply, val_main_call0_cst_apply, val_main_v37_apply, val_main_v34_apply, val_main_v36_apply, val_main_v35_apply,
    show idx_main_v35 (idx_main_v36 (ix2 r q)) = ix1 q from funext fun a => Fin.ext (by match a with | ⟨0, _⟩ => rfl)]
  unfold Cert.LnLin.linRelu Cert.LnLin.lin
  simp only [Ideal.maximumf_def, Ideal.addf_def, Ideal.ofBits_def]
  refine congrArg (fun s => max (s + x6 (ix1 q)) Cert.LnLin.cZero) (Finset.sum_congr rfl fun k _ => ?_)
  rw [show lidx_main_v34 (ix2 r q) k = ix2 r k from funext fun a => Fin.ext (by match a with | ⟨0, _⟩ => rfl | ⟨1, _⟩ => rfl),
    show ridx_main_v34 (ix2 r q) k = ix2 k q from funext fun a => Fin.ext (by match a with | ⟨0, _⟩ => rfl | ⟨1, _⟩ => rfl), normed1]

/-! ### Layer 2 -/

/-- Layer 2: the row sum of the aggregated matrix (the host sum starts from the zero word, which is 0). -/
theorem rowsum2 (r : Fin 100000) :
    val_main_v49 (F := Ideal) x0 x1 x2 x3 x4 x5 x6 (ix1 r) = ∑ k : Fin 128, val_main_v48 (F := Ideal) x0 x1 x2 x3 x4 x5 x6 (ix2 r k) := by
  rw [val_main_v49_apply, val_main_cst_9_apply, Ideal.ofBits_def, Ideal.ofBits_zero_f32, zero_add]
  refine Finset.sum_congr rfl fun k _ => congrArg _ ?_
  exact funext fun a => Fin.ext (by match a with | ⟨0, _⟩ => rfl | ⟨1, _⟩ => rfl)

/-- Layer 2: the kept-dimension column of row means is the specification's mean of the row. -/
theorem mean2 (r : Fin 100000) :
    val_main_v52 (F := Ideal) x0 x1 x2 x3 x4 x5 x6 (ix2 r (0 : Fin 1)) = Cert.LnLin.mean (fun j => val_main_v48 (F := Ideal) x0 x1 x2 x3 x4 x5 x6 (ix2 r j)) := by
  rw [val_main_v52_apply, val_main_v50_apply, val_main_v51_apply, val_main_cst_10_apply, Ideal.hostDivf_def, Ideal.ofBits_def,
    show idx_main_v50 (ix2 r (0 : Fin 1)) = ix1 r from funext fun a => Fin.ext (by match a with | ⟨0, _⟩ => rfl), rowsum2]
  rfl

/-- Layer 2: an entry's deviation from its row mean. -/
theorem dev2 (r : Fin 100000) (k : Fin 128) :
    val_main_v54 (F := Ideal) x0 x1 x2 x3 x4 x5 x6 (ix2 r k) = val_main_v48 (F := Ideal) x0 x1 x2 x3 x4 x5 x6 (ix2 r k) - Cert.LnLin.mean (fun j => val_main_v48 (F := Ideal) x0 x1 x2 x3 x4 x5 x6 (ix2 r j)) := by
  rw [val_main_v54_apply, val_main_v53_apply, Ideal.subf_def,
    show idx_main_v53 (ix2 r k) = ix2 r (0 : Fin 1) from funext fun a => Fin.ext (by match a with | ⟨0, _⟩ => rfl | ⟨1, _⟩ => rfl), mean2]

/-- Layer 2: the kept-dimension column of row variances is the specification's variance of the row. -/
theorem var2 (r : Fin 100000) :
    val_main_v59 (F := Ideal) x0 x1 x2 x3 x4 x5 x6 (ix2 r (0 : Fin 1)) = Cert.LnLin.var (fun j => val_main_v48 (F := Ideal) x0 x1 x2 x3 x4 x5 x6 (ix2 r j)) := by
  rw [val_main_v59_apply, val_main_v57_apply, val_main_v58_apply, val_main_cst_12_apply, Ideal.hostDivf_def, Ideal.ofBits_def,
    show idx_main_v57 (ix2 r (0 : Fin 1)) = ix1 r from funext fun a => Fin.ext (by match a with | ⟨0, _⟩ => rfl),
    val_main_v56_apply, val_main_cst_11_apply, Ideal.ofBits_def, Ideal.ofBits_zero_f32, zero_add]
  unfold Cert.LnLin.var
  refine congrArg (fun s => Ideal.div s Cert.LnLin.c128) (Finset.sum_congr rfl fun k _ => ?_)
  rw [val_main_v55_apply, Ideal.mulf_def, show idx_main_v56 (ix1 r) k = ix2 r k from funext fun a => Fin.ext (by match a with | ⟨0, _⟩ => rfl | ⟨1, _⟩ => rfl), dev2]

/-- Layer 2: the normalised, scaled and shifted entry is the specification's. -/
theorem normed2 (r : Fin 100000) (k : Fin 128) :
    val_main_v72 (F := Ideal) x0 x1 x2 x3 x4 x5 x6 x7 x8 (ix2 r k) =
      Cert.LnLin.normed (fun j => val_main_v48 (F := Ideal) x0 x1 x2 x3 x4 x5 x6 (ix2 r j)) (fun j => x7 (ix1 j)) (fun j => x8 (ix1 j)) k := by
  rw [val_main_v72_apply, val_main_v69_apply, val_main_v66_apply, val_main_v61_apply, val_main_v60_apply, val_main_v65_apply, val_main_v64_apply,
    val_main_v63_apply, val_main_v62_apply, val_main_cst_13_apply, val_main_v68_apply, val_main_v67_apply, val_main_v71_apply, val_main_v70_apply,
    show idx_main_v60 (ix2 r k) = ix2 r (0 : Fin 1) from funext fun a => Fin.ext (by match a with | ⟨0, _⟩ => rfl | ⟨1, _⟩ => rfl),
    show idx_main_v65 (ix2 r k) = ix2 r (0 : Fin 1) from funext fun a => Fin.ext (by match a with | ⟨0, _⟩ => rfl | ⟨1, _⟩ => rfl),
    show idx_main_v67 (idx_main_v68 (ix2 r k)) = ix1 k from funext fun a => Fin.ext (by match a with | ⟨0, _⟩ => rfl),
    show idx_main_v70 (idx_main_v71 (ix2 r k)) = ix1 k from funext fun a => Fin.ext (by match a with | ⟨0, _⟩ => rfl),
    mean2, var2]
  simp only [Ideal.addf_def, Ideal.mulf_def, Ideal.subf_def, Ideal.hostUnary_rsqrt_def, Ideal.ofBits_def]
  rfl

/-- Layer 2 as a whole: the reference's stage is the specification's layer of the aggregated matrix. -/
theorem layer2_raw :
    val_main_v77 (F := Ideal) x0 x1 x2 x3 x4 x5 x6 x7 x8 x9 x10 = Cert.LnLin.layerRelu (val_main_v48 (F := Ideal) x0 x1 x2 x3 x4 x5 x6) x7 x8 x9 x10 := by
  funext i
  obtain ⟨r, q, rfl⟩ : ∃ (r : Fin 100000) (q : Fin 128), i = ix2 r q := ⟨i 0, i 1, eq_ix2 i⟩
  rw [Cert.LnLin.layerRelu_apply, val_main_v77_apply, val_main_call1_v0_apply, val_main_call1_cst_apply, val_main_v76_apply, val_main_v73_apply, val_main_v75_apply, val_main_v74_apply,
    show idx_main_v74 (idx_main_v75 (ix2 r q)) = ix1 q from funext fun a => Fin.ext (by match a with | ⟨0, _⟩ => rfl)]
  unfold Cert.LnLin.linRelu Cert.LnLin.lin
  simp only [Ideal.maximumf_def, Ideal.addf_def, Ideal.ofBits_def]
  refine congrArg (fun s => max (s + x10 (ix1 q)) Cert.LnLin.cZero) (Finset.sum_congr rfl fun k _ => ?_)
  rw [show lidx_main_v73 (ix2 r q) k = ix2 r k from funext fun a => Fin.ext (by match a with | ⟨0, _⟩ => rfl | ⟨1, _⟩ => rfl),
    show ridx_main_v73 (ix2 r q) k = ix2 k q from funext fun a => Fin.ext (by match a with | ⟨0, _⟩ => rfl | ⟨1, _⟩ => rfl), normed2]

/-! ### Layer 3 -/

/-- Layer 3: the row sum of the aggregated matrix (the host sum starts from the zero word, which is 0). -/
theorem rowsum3 (r : Fin 100000) :
    val_main_v88 (F := Ideal) x0 x1 x2 x3 x4 x5 x6 x7 x8 x9 x10 (ix1 r) = ∑ k : Fin 128, val_main_v87 (F := Ideal) x0 x1 x2 x3 x4 x5 x6 x7 x8 x9 x10 (ix2 r k) := by
  rw [val_main_v88_apply, val_main_cst_17_apply, Ideal.ofBits_def, Ideal.ofBits_zero_f32, zero_add]
  refine Finset.sum_congr rfl fun k _ => congrArg _ ?_
  exact funext fun a => Fin.ext (by match a with | ⟨0, _⟩ => rfl | ⟨1, _⟩ => rfl)

/-- Layer 3: the kept-dimension column of row means is the specification's mean of the row. -/
theorem mean3 (r : Fin 100000) :
    val_main_v91 (F := Ideal) x0 x1 x2 x3 x4 x5 x6 x7 x8 x9 x10 (ix2 r (0 : Fin 1)) = Cert.LnLin.mean (fun j => val_main_v87 (F := Ideal) x0 x1 x2 x3 x4 x5 x6 x7 x8 x9 x10 (ix2 r j)) := by
  rw [val_main_v91_apply, val_main_v89_apply, val_main_v90_apply, val_main_cst_18_apply, Ideal.hostDivf_def, Ideal.ofBits_def,
    show idx_main_v89 (ix2 r (0 : Fin 1)) = ix1 r from funext fun a => Fin.ext (by match a with | ⟨0, _⟩ => rfl), rowsum3]
  rfl

/-- Layer 3: an entry's deviation from its row mean. -/
theorem dev3 (r : Fin 100000) (k : Fin 128) :
    val_main_v93 (F := Ideal) x0 x1 x2 x3 x4 x5 x6 x7 x8 x9 x10 (ix2 r k) = val_main_v87 (F := Ideal) x0 x1 x2 x3 x4 x5 x6 x7 x8 x9 x10 (ix2 r k) - Cert.LnLin.mean (fun j => val_main_v87 (F := Ideal) x0 x1 x2 x3 x4 x5 x6 x7 x8 x9 x10 (ix2 r j)) := by
  rw [val_main_v93_apply, val_main_v92_apply, Ideal.subf_def,
    show idx_main_v92 (ix2 r k) = ix2 r (0 : Fin 1) from funext fun a => Fin.ext (by match a with | ⟨0, _⟩ => rfl | ⟨1, _⟩ => rfl), mean3]

/-- Layer 3: the kept-dimension column of row variances is the specification's variance of the row. -/
theorem var3 (r : Fin 100000) :
    val_main_v98 (F := Ideal) x0 x1 x2 x3 x4 x5 x6 x7 x8 x9 x10 (ix2 r (0 : Fin 1)) = Cert.LnLin.var (fun j => val_main_v87 (F := Ideal) x0 x1 x2 x3 x4 x5 x6 x7 x8 x9 x10 (ix2 r j)) := by
  rw [val_main_v98_apply, val_main_v96_apply, val_main_v97_apply, val_main_cst_20_apply, Ideal.hostDivf_def, Ideal.ofBits_def,
    show idx_main_v96 (ix2 r (0 : Fin 1)) = ix1 r from funext fun a => Fin.ext (by match a with | ⟨0, _⟩ => rfl),
    val_main_v95_apply, val_main_cst_19_apply, Ideal.ofBits_def, Ideal.ofBits_zero_f32, zero_add]
  unfold Cert.LnLin.var
  refine congrArg (fun s => Ideal.div s Cert.LnLin.c128) (Finset.sum_congr rfl fun k _ => ?_)
  rw [val_main_v94_apply, Ideal.mulf_def, show idx_main_v95 (ix1 r) k = ix2 r k from funext fun a => Fin.ext (by match a with | ⟨0, _⟩ => rfl | ⟨1, _⟩ => rfl), dev3]

/-- Layer 3: the normalised, scaled and shifted entry is the specification's. -/
theorem normed3 (r : Fin 100000) (k : Fin 128) :
    val_main_v111 (F := Ideal) x0 x1 x2 x3 x4 x5 x6 x7 x8 x9 x10 x11 x12 (ix2 r k) =
      Cert.LnLin.normed (fun j => val_main_v87 (F := Ideal) x0 x1 x2 x3 x4 x5 x6 x7 x8 x9 x10 (ix2 r j)) (fun j => x11 (ix1 j)) (fun j => x12 (ix1 j)) k := by
  rw [val_main_v111_apply, val_main_v108_apply, val_main_v105_apply, val_main_v100_apply, val_main_v99_apply, val_main_v104_apply, val_main_v103_apply,
    val_main_v102_apply, val_main_v101_apply, val_main_cst_21_apply, val_main_v107_apply, val_main_v106_apply, val_main_v110_apply, val_main_v109_apply,
    show idx_main_v99 (ix2 r k) = ix2 r (0 : Fin 1) from funext fun a => Fin.ext (by match a with | ⟨0, _⟩ => rfl | ⟨1, _⟩ => rfl),
    show idx_main_v104 (ix2 r k) = ix2 r (0 : Fin 1) from funext fun a => Fin.ext (by match a with | ⟨0, _⟩ => rfl | ⟨1, _⟩ => rfl),
    show idx_main_v106 (idx_main_v107 (ix2 r k)) = ix1 k from funext fun a => Fin.ext (by match a with | ⟨0, _⟩ => rfl),
    show idx_main_v109 (idx_main_v110 (ix2 r k)) = ix1 k from funext fun a => Fin.ext (by match a with | ⟨0, _⟩ => rfl),
    mean3, var3]
  simp only [Ideal.addf_def, Ideal.mulf_def, Ideal.subf_def, Ideal.hostUnary_rsqrt_def, Ideal.ofBits_def]
  rfl

/-- Layer 3 as a whole: the reference's stage is the specification's layer of the aggregated matrix. -/
theorem layer3_raw :
    val_main_v115 (F := Ideal) x0 x1 x2 x3 x4 x5 x6 x7 x8 x9 x10 x11 x12 x13 x14 = Cert.LnLin.layer (val_main_v87 (F := Ideal) x0 x1 x2 x3 x4 x5 x6 x7 x8 x9 x10) x11 x12 x13 x14 := by
  funext i
  obtain ⟨r, q, rfl⟩ : ∃ (r : Fin 100000) (q : Fin 128), i = ix2 r q := ⟨i 0, i 1, eq_ix2 i⟩
  rw [Cert.LnLin.layer_apply, val_main_v115_apply, val_main_v112_apply, val_main_v114_apply, val_main_v113_apply,
    show idx_main_v113 (idx_main_v114 (ix2 r q)) = ix1 q from funext fun a => Fin.ext (by match a with | ⟨0, _⟩ => rfl)]
  unfold Cert.LnLin.lin
  simp only [Ideal.addf_def, Ideal.ofBits_def]
  refine congrArg (fun s => s + x14 (ix1 q)) (Finset.sum_congr rfl fun k _ => ?_)
  rw [show lidx_main_v112 (ix2 r q) k = ix2 r k from funext fun a => Fin.ext (by match a with | ⟨0, _⟩ => rfl | ⟨1, _⟩ => rfl),
    show ridx_main_v112 (ix2 r q) k = ix2 k q from funext fun a => Fin.ext (by match a with | ⟨0, _⟩ => rfl | ⟨1, _⟩ => rfl), normed3]

/-! ### The three aggregation stages are one function -/

/-- Layer 1 aggregates the features. -/
theorem agg1 : val_main_v9 (F := Ideal) x0 x1 x2 = agg x1 x2 x0 := rfl

/-- Layer 2 aggregates layer 1's result: the stages that prepare the indices and the zero start are spelt again, identically. -/
theorem agg2 : val_main_v48 (F := Ideal) x0 x1 x2 x3 x4 x5 x6 = agg x1 x2 (val_main_v38 (F := Ideal) x0 x1 x2 x3 x4 x5 x6) := rfl

/-- Layer 3 aggregates layer 2's result. -/
theorem agg3 : val_main_v87 (F := Ideal) x0 x1 x2 x3 x4 x5 x6 x7 x8 x9 x10 =
    agg x1 x2 (val_main_v77 (F := Ideal) x0 x1 x2 x3 x4 x5 x6 x7 x8 x9 x10) := rfl

/-- Layer 1 of the reference is the specification's rectified layer of the aggregated features. -/
theorem layer1 : val_main_v38 (F := Ideal) x0 x1 x2 x3 x4 x5 x6 = Cert.LnLin.layerRelu (agg x1 x2 x0) x3 x4 x5 x6 :=
  layer1_raw x0 x1 x2 x3 x4 x5 x6

/-- Layer 2 of the reference is the specification's rectified layer of the aggregation of layer 1's result. -/
theorem layer2 : val_main_v77 (F := Ideal) x0 x1 x2 x3 x4 x5 x6 x7 x8 x9 x10 =
    Cert.LnLin.layerRelu (agg x1 x2 (val_main_v38 (F := Ideal) x0 x1 x2 x3 x4 x5 x6)) x7 x8 x9 x10 :=
  (layer2_raw x0 x1 x2 x3 x4 x5 x6 x7 x8 x9 x10).trans
    (congrArg (fun X => Cert.LnLin.layerRelu X x7 x8 x9 x10) (agg2 x0 x1 x2 x3 x4 x5 x6))

/-- Layer 3 of the reference is the specification's layer (no maximum) of the aggregation of layer 2's result. -/
theorem layer3 : val_main_v115 (F := Ideal) x0 x1 x2 x3 x4 x5 x6 x7 x8 x9 x10 x11 x12 x13 x14 =
    Cert.LnLin.layer (agg x1 x2 (val_main_v77 (F := Ideal) x0 x1 x2 x3 x4 x5 x6 x7 x8 x9 x10)) x11 x12 x13 x14 :=
  (layer3_raw x0 x1 x2 x3 x4 x5 x6 x7 x8 x9 x10 x11 x12 x13 x14).trans
    (congrArg (fun X => Cert.LnLin.layer X x11 x12 x13 x14) (agg3 x0 x1 x2 x3 x4 x5 x6 x7 x8 x9 x10))

/-! ### The reference's result is the network -/

/-- The reference's result is the network of the specification at the arguments, with the host's aggregation as the aggregation step. -/
theorem result_eq (m : (ℓ : Loc nD τ sig) → Buf (Elt Ideal) ℓ) (c : Dev nD) :
    Cert.ReferenceIdeal.Value.res_main_v115 (F := Ideal) m c =
      Cert.LnLin.net (agg (m ((c.tc : Thread nD τ).loc main_arg1)) (m ((c.tc : Thread nD τ).loc main_arg2))) (m ((c.tc : Thread nD τ).loc main_arg0))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13)) (m ((c.tc : Thread nD τ).loc main_arg14)) := by
  rw [Read.val_main_v115_eq, layer3, layer2, layer1]
  rfl

end Cert.ReferenceIdeal.RefValue

end
-- ==== Proof.lean ====
/-
  A three-layer graph network, as a kernel program and as its reference, compute the same function on the extended
  reals.

  Each layer aggregates on the host (the rows named by the source indices are gathered and added into the rows named
  by the destination indices) and then acts on every row of the [100000, 128] result by itself: the row is centred by
  its mean, scaled by the reciprocal square root of its variance plus an epsilon, multiplied by g and shifted by be,
  multiplied by a [128, 128] matrix, shifted by a bias, and — in the first two layers — clamped below at zero. The
  kernel program does the per-row part in a kernel launched over 50 blocks of 2000 rows; the reference does it with
  whole-matrix host operations. Both spell the aggregation with the same host operations, both divide the row sums by
  the same word for 128, add the same word for epsilon, and take the same reciprocal square root, so with exact
  arithmetic they are the same formula entry by entry: no algebraic law is needed beyond reading the two programs, and
  the finiteness of the inputs is never used. The specification both meet is Proof/Spec.lean; that the kernel's run
  ends at it is Proof/KernelHost.lean (over Proof/KernelRun.lean, Proof/Blocks.lean and Proof/Payload.lean); that the
  reference's run ends at it is Proof/RefValue.lean over the reference's generated run.
-/
import proofs.«143838_j27779848471368_1_alg».proof.Defs
import proofs.«143838_j27779848471368_1_alg».proof.Proof.Gen.Kernel
import proofs.«143838_j27779848471368_1_alg».proof.Proof.Gen.Kernel.Skeleton
import proofs.«143838_j27779848471368_1_alg».proof.Proof.Gen.Kernel.Launch
import proofs.«143838_j27779848471368_1_alg».proof.Proof.Gen.Kernel.Points
import proofs.«143838_j27779848471368_1_alg».proof.Proof.Gen.Kernel.Frame
import proofs.«143838_j27779848471368_1_alg».proof.Proof.Gen.KernelIdeal
import proofs.«143838_j27779848471368_1_alg».proof.Proof.Gen.KernelIdeal.Skeleton
import proofs.«143838_j27779848471368_1_alg».proof.Proof.Gen.KernelIdeal.Launch
import proofs.«143838_j27779848471368_1_alg».proof.Proof.Gen.KernelIdeal.Points
import proofs.«143838_j27779848471368_1_alg».proof.Proof.Gen.KernelIdeal.Frame
import proofs.«143838_j27779848471368_1_alg».proof.Proof.Gen.ReferenceIdeal
import proofs.«143838_j27779848471368_1_alg».proof.Proof.Gen.Pre_finite_inputs
import proofs.«143838_j27779848471368_1_alg».proof.Proof.Gen.ReferenceIdeal.Run
import proofs.«143838_j27779848471368_1_alg».proof.Proof.Gen.ReferenceIdeal.Read
import Idealize.ShloMosaic.Adequacy
import Idealize.ShloMosaic.Init
import proofs.«143838_j27779848471368_1_alg».proof.Proof.KernelHost
import proofs.«143838_j27779848471368_1_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- The two programs spell the aggregation step with the same host operations: as functions of the index vectors and
    of the matrix they aggregate they are one function. -/
theorem agg_eq (src dst : (⟨Cert.KernelIdeal.S1600000, .i32⟩ : BufTy).Contents (Elt Ideal)) :
    Cert.ReferenceIdeal.RefValue.agg src dst = Cert.KernelIdeal.KHost.agg src dst :=
  funext fun _ => rfl

/-- From memories agreeing on the arguments both programs end at the network of the arguments. -/
theorem algebraic : Cert.algebraic_KernelIdeal_ReferenceIdeal := by
  intro m ρ m' ρ' _ hagree
  refine ⟨_, Cert.KernelIdeal.KHost.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.RefValue.result_eq, e0, e1, e2, e3, e4, e5, e6, e7, e8, e9, e10, e11, e12, e13, e14, agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
